-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x640 : Shape := ⟨3, ![16, 4096, 640]⟩
abbrev S64x640 : Shape := ⟨2, ![64, 640]⟩
abbrev S_ : Shape := ⟨0, ![]⟩

class Facts : Prop where
  bcast_S_S16x4096x640 : S_.BroadcastsInDim S16x4096x640 (![] : Fin 0 → Fin S16x4096x640.rank)
  reducesTo_S16x4096x640_S_d0_1_2 : S16x4096x640.ReducesTo [0, 1, 2] S_
  h_S_ : 0 < S_.numel
  bcast_S_S64x640 : S_.BroadcastsInDim S64x640 (![] : Fin 0 → Fin S64x640.rank)
  reducesTo_S64x640_S_d0_1 : S64x640.ReducesTo [0, 1] S_

variable [Facts]

def fn {F : FTy → Type} [FloatOps F] (main_arg0 : FVec F S16x4096x640 .f32) (main_arg1 : FVec F S64x640 .f32) (main_arg2 : FVec F S64x640 .f32) : IVec S_ 1 :=
  let main_v0 : FVec F S16x4096x640 .f32 := Host.absf main_arg0
  let main_cst : FVec F S_ .f32 := constant S_ .f32 0x7F800000#32
  let main_v1 : FVec F S16x4096x640 .f32 := broadcastInDim S16x4096x640 ![] bcast_S_S16x4096x640 main_cst
  let main_v2 : IVec S16x4096x640 1 := cmpf .olt main_v0 main_v1
  let main_c : IVec S_ 1 := constantI S_ 1 1#1
  let main_v3 : IVec S_ 1 := (fun x v => Host.reduce IntOp.andi x v reducesTo_S16x4096x640_S_d0_1_2 h_S_) main_v2 main_c
  let main_v4 : FVec F S64x640 .f32 := Host.absf main_arg1
  let main_cst_0 : FVec F S_ .f32 := constant S_ .f32 0x7F800000#32
  let main_v5 : FVec F S64x640 .f32 := broadcastInDim S64x640 ![] bcast_S_S64x640 main_cst_0
  let main_v6 : IVec S64x640 1 := cmpf .olt main_v4 main_v5
  let main_c_1 : IVec S_ 1 := constantI S_ 1 1#1
  let main_v7 : IVec S_ 1 := (fun x v => Host.reduce IntOp.andi x v reducesTo_S64x640_S_d0_1 h_S_) main_v6 main_c_1
  let main_v8 : IVec S_ 1 := andi main_v3 main_v7
  let main_v9 : FVec F S64x640 .f32 := Host.absf main_arg2
  let main_cst_2 : FVec F S_ .f32 := constant S_ .f32 0x7F800000#32
  let main_v10 : FVec F S64x640 .f32 := broadcastInDim S64x640 ![] bcast_S_S64x640 main_cst_2
  let main_v11 : IVec S64x640 1 := cmpf .olt main_v9 main_v10
  let main_c_3 : IVec S_ 1 := constantI S_ 1 1#1
  let main_v12 : IVec S_ 1 := (fun x v => Host.reduce IntOp.andi x v reducesTo_S64x640_S_d0_1 h_S_) main_v11 main_c_3
  let main_v13 : IVec S_ 1 := andi main_v8 main_v12
  main_v13
-- ==== Kernel.lean ====
abbrev S16x4096x640 : Shape := ⟨3, ![16, 4096, 640]⟩
abbrev S64x640 : Shape := ⟨2, ![64, 640]⟩
abbrev S65536x640 : Shape := ⟨2, ![65536, 640]⟩
abbrev S640x64 : Shape := ⟨2, ![640, 64]⟩
abbrev S2048x640 : Shape := ⟨2, ![2048, 640]⟩
abbrev S2048x64 : Shape := ⟨2, ![2048, 64]⟩
abbrev S2048 : Shape := ⟨1, ![2048]⟩
abbrev S2048x1 : Shape := ⟨2, ![2048, 1]⟩

abbrev nBuf : Space → Nat
  | .hbm => 7
  | .vmem => 6
  | .smem => 0
  | _ => 0

abbrev bufTy : (tb : Table) → Fin (tcTables nBuf tb) → BufTy
  | .hbm, ⟨0, _⟩ => ⟨S16x4096x640, .f32⟩
  | .hbm, ⟨1, _⟩ => ⟨S64x640, .f32⟩
  | .hbm, ⟨2, _⟩ => ⟨S64x640, .f32⟩
  | .hbm, ⟨3, _⟩ => ⟨S65536x640, .f32⟩
  | .hbm, ⟨4, _⟩ => ⟨S640x64, .f32⟩
  | .hbm, ⟨5, _⟩ => ⟨S65536x640, .f32⟩
  | .hbm, ⟨6, _⟩ => ⟨S16x4096x640, .f32⟩
  | .local _ .vmem, ⟨0, _⟩ => ⟨S2048x640, .f32⟩
  | .local _ .vmem, ⟨1, _⟩ => ⟨S2048x640, .f32⟩
  | .local _ .vmem, ⟨2, _⟩ => ⟨S640x64, .f32⟩
  | .local _ .vmem, ⟨3, _⟩ => ⟨S64x640, .f32⟩
  | .local _ .vmem, ⟨4, _⟩ => ⟨S2048x640, .f32⟩
  | .local _ .vmem, ⟨5, _⟩ => ⟨S2048x640, .f32⟩
  | _, _ => ⟨S16x4096x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x4096x640_S65536x640 : S16x4096x640.ShapeCasts S65536x640
  transposes_S64x640_S640x64_1_0 : S64x640.Transposes [1, 0] S640x64
  inb_S2048x640_S2048x640_0_0 : ∀ a, (![0, 0] : Fin 2 → Nat) a + S2048x640.size a ≤ S2048x640.size a
  h_S2048x640 : 0 < S2048x640.numel
  shapeCasts_S2048x640_S2048x640 : S2048x640.ShapeCasts S2048x640
  bitsLt_bf16_f32 : FTy.bits .bf16 < FTy.bits .f32
  inb_S640x64_S640x64_0_0 : ∀ a, (![0, 0] : Fin 2 → Nat) a + S640x64.size a ≤ S640x64.size a
  h_S640x64 : 0 < S640x64.numel
  shapeCasts_S640x64_S640x64 : S640x64.ShapeCasts S640x64
  inb_S64x640_S64x640_0_0 : ∀ a, (![0, 0] : Fin 2 → Nat) a + S64x640.size a ≤ S64x640.size a
  h_S64x640 : 0 < S64x640.numel
  reduces_S2048x64_S2048 : S2048x64.Reduces [1] S2048
  shapeCasts_S2048_S2048x1 : S2048.ShapeCasts S2048x1
  broadcasts_S2048x1_S2048x64 : S2048x1.Broadcasts S2048x64
  shapeCasts_S65536x640_S16x4096x640 : S65536x640.ShapeCasts S16x4096x640
  dot_S2048x640_S640x64_S2048x64_1_0_0_1_n_n_wf : DotDims.WF S2048x640 S640x64 S2048x64 [1] [0] [0] [1] [] []
  dot_S2048x64_S64x640_S2048x640_1_0_0_1_n_n_wf : DotDims.WF S2048x64 S64x640 S2048x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x640.size a ≤ S65536x640.size a
  hwx0_0 : ∀ i : grid0.Coords, EltTy.bits .f32 = 32 ∨ (Rect.block (s := S65536x640) S2048x640.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x64.size a ≤ S640x64.size a
  hwx0_1 : ∀ i : grid0.Coords, EltTy.bits .f32 = 32 ∨ (Rect.block (s := S640x64) S640x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x640.size a ≤ S64x640.size a
  hwx0_2 : ∀ i : grid0.Coords, EltTy.bits .f32 = 32 ∨ (Rect.block (s := S64x640) S64x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x640.size a ≤ S65536x640.size a
  hwx0_3 : ∀ i : grid0.Coords, EltTy.bits .f32 = 32 ∨ (Rect.block (s := S65536x640) S2048x640.size (cc0_transform_3 i) (hinb0_3 i)).WholeWords (EltTy.packing .f32)

variable [Facts₀]

def dot_S2048x640_S640x64_S2048x64_1_0_0_1_n_n : DotDims S2048x640 S640x64 S2048x64 where
  lhsContracting := [1]
  rhsContracting := [0]
  lhsNonContracting := [0]
  rhsNonContracting := [1]
  lhsBatch := []
  rhsBatch := []
  wf := dot_S2048x640_S640x64_S2048x64_1_0_0_1_n_n_wf
def dot_S2048x64_S64x640_S2048x640_1_0_0_1_n_n : DotDims S2048x64 S64x640 S2048x640 where
  lhsContracting := [1]
  rhsContracting := [0]
  lhsNonContracting := [0]
  rhsNonContracting := [1]
  lhsBatch := []
  rhsBatch := []
  wf := dot_S2048x64_S64x640_S2048x640_1_0_0_1_n_n_wf

abbrev win0_0 : Pipeline.Window sig grid0 :=
  Pipeline.Window.ofSpec (Memref.whole main_v0) S2048x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S640x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x640.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x640 : Shape := ⟨3, ![16, 4096, 640]⟩
abbrev S64x640 : Shape := ⟨2, ![64, 640]⟩
abbrev S16x4096x64 : Shape := ⟨3, ![16, 4096, 64]⟩
abbrev S_ : Shape := ⟨0, ![]⟩
abbrev S16x4096 : Shape := ⟨2, ![16, 4096]⟩
abbrev S16x4096x1 : Shape := ⟨3, ![16, 4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S16x4096x640, .f32⟩
  | .hbm, ⟨1, _⟩ => ⟨S64x640, .f32⟩
  | .hbm, ⟨2, _⟩ => ⟨S64x640, .f32⟩
  | .hbm, ⟨3, _⟩ => ⟨S16x4096x64, .f32⟩
  | .hbm, ⟨4, _⟩ => ⟨S_, .f32⟩
  | .hbm, ⟨5, _⟩ => ⟨S16x4096, .f32⟩
  | .hbm, ⟨6, _⟩ => ⟨S_, .f32⟩
  | .hbm, ⟨7, _⟩ => ⟨S16x4096, .f32⟩
  | .hbm, ⟨8, _⟩ => ⟨S16x4096, .f32⟩
  | .hbm, ⟨9, _⟩ => ⟨S16x4096x1, .f32⟩
  | .hbm, ⟨10, _⟩ => ⟨S16x4096x64, .f32⟩
  | .hbm, ⟨11, _⟩ => ⟨S16x4096x64, .f32⟩
  | .hbm, ⟨12, _⟩ => ⟨S16x4096x64, .f32⟩
  | .hbm, ⟨13, _⟩ => ⟨S_, .f32⟩
  | .hbm, ⟨14, _⟩ => ⟨S16x4096, .f32⟩
  | .hbm, ⟨15, _⟩ => ⟨S16x4096x1, .f32⟩
  | .hbm, ⟨16, _⟩ => ⟨S16x4096x64, .f32⟩
  | .hbm, ⟨17, _⟩ => ⟨S16x4096x64, .f32⟩
  | .hbm, ⟨18, _⟩ => ⟨S16x4096x640, .f32⟩
  | _, _ => ⟨S16x4096x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S16x4096x64_S16x4096_d2 : S16x4096x64.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x64_0_1_2 : S16x4096x1.BroadcastsInDim S16x4096x64 (![0, 1, 2] : Fin 3 → Fin S16x4096x64.rank)
  dot_S16x4096x640_S64x640_S16x4096x64_2_1_01_0_n_n_wf : DotDims.WF S16x4096x640 S64x640 S16x4096x64 [2] [1] [0, 1] [0] [] []
  dot_S16x4096x64_S64x640_S16x4096x640_2_0_01_1_n_n_wf : DotDims.WF S16x4096x64 S64x640 S16x4096x640 [2] [0] [0, 1] [1] [] []

variable [Facts₀]

def dot_S16x4096x640_S64x640_S16x4096x64_2_1_01_0_n_n : DotDims S16x4096x640 S64x640 S16x4096x64 where
  lhsContracting := [2]
  rhsContracting := [1]
  lhsNonContracting := [0, 1]
  rhsNonContracting := [0]
  lhsBatch := []
  rhsBatch := []
  wf := dot_S16x4096x640_S64x640_S16x4096x64_2_1_01_0_n_n_wf
def dot_S16x4096x64_S64x640_S16x4096x640_2_0_01_1_n_n : DotDims S16x4096x64 S64x640 S16x4096x640 where
  lhsContracting := [2]
  rhsContracting := [0]
  lhsNonContracting := [0, 1]
  rhsNonContracting := [1]
  lhsBatch := []
  rhsBatch := []
  wf := dot_S16x4096x64_S64x640_S16x4096x640_2_0_01_1_n_n_wf

class Facts : Prop extends Facts₀ where

variable [Facts]
-- ==== Proof.Attend.lean ====
/-
  The function both programs compute, on the extended reals: attention of every row of `x` over a memory of 64
  key rows `Mk` and 64 value rows `Mv`, each of width 640.

  For one row `x : Fin 640 → EReal`:
    score k  = ∑ d, x d · Mk k d                       (64 scores)
    rowMax   = max (-∞) (the maximum of the scores, folded from -∞)
    expo k   = exp (score k - rowMax)
    weight k = expo k / ∑ k', expo k'                   (the softmax of the scores)
    attend d = ∑ k, weight k · Mv k d                   (640 results)
  `-∞` is kept as the f32 pattern both programs write; the division is the extended reals' `Ideal.div` and the
  exponential `Ideal.exp`, which both programs use. Nothing here needs a finite input: the two programs apply the
  same operations in the same order, and only the indexing of the sums differs.

  `whole` is that function over the arrays as the programs receive them, [16, 4096, 640] rows against [64, 640]
  memories; `flat` is the same over the rows laid out as [65536, 640] with the keys TRANSPOSED, [640, 64] — the
  arrangement the tiled program works on.
-/
import Idealize.ShloMosaic.PureOps.Ideal
import Idealize.ShloMosaic.PureOps.Ideal.Laws
import Idealize.ShloMosaic.Lib.ValueIdx

noncomputable section

namespace Cert.MemAttn

open Idealize.ShloMosaic Idealize.ShloMosaic.ValueIdx

/-- f32's negative infinity, as the pattern both programs write it. -/
abbrev negInf : EReal := Ideal.ofBits .f32 0xFF800000#32

/-- A row's score against key row `k`: their inner product. -/
def score (x : Fin 640 → EReal) (K : Fin 64 → Fin 640 → EReal) (k : Fin 64) : EReal :=
  ∑ d : Fin 640, x d * K k d

/-- The largest of 64 scores, folded from `-∞` and once more compared with `-∞`. -/
def rowMax (s : Fin 64 → EReal) : EReal :=
  max negInf ((Finset.univ : Finset (Fin 64)).fold max negInf s)

/-- The exponential of a score's distance below the row's maximum. -/
def expo (s : Fin 64 → EReal) (k : Fin 64) : EReal := Ideal.exp (s k - rowMax s)

/-- The softmax weight of key `k`. -/
def weight (s : Fin 64 → EReal) (k : Fin 64) : EReal := Ideal.div (expo s k) (∑ k' : Fin 64, expo s k')

/-- The attended row: the value rows averaged by the weights. -/
def attend (x : Fin 640 → EReal) (K V : Fin 64 → Fin 640 → EReal) (d : Fin 640) : EReal :=
  ∑ k : Fin 64, weight (score x K) k * V k d

/-- Entry `(b, r, d)` of the result over the arrays as given. -/
def wholeAt (X : (⟨3, ![16, 4096, 640]⟩ : Shape).Idx → EReal) (Mk Mv : (⟨2, ![64, 640]⟩ : Shape).Idx → EReal)
    (b : Fin 16) (r : Fin 4096) (d : Fin 640) : EReal :=
  attend (fun d' => X (ix3 b r d')) (fun k d' => Mk (ix2 k d')) (fun k d' => Mv (ix2 k d')) d

/-- The result array over the arrays as given. -/
def whole (X : (⟨3, ![16, 4096, 640]⟩ : Shape).Idx → EReal) (Mk Mv : (⟨2, ![64, 640]⟩ : Shape).Idx → EReal) :
    (⟨3, ![16, 4096, 640]⟩ : Shape).Idx → EReal :=
  fun i => wholeAt X Mk Mv (i 0) (i 1) (i 2)

/-- Entry `(n, d)` of the result over the flattened rows and the transposed keys. -/
def flatAt (Xf : (⟨2, ![65536, 640]⟩ : Shape).Idx → EReal) (Kt : (⟨2, ![640, 64]⟩ : Shape).Idx → EReal)
    (V : (⟨2, ![64, 640]⟩ : Shape).Idx → EReal) (n : Fin 65536) (d : Fin 640) : EReal :=
  attend (fun d' => Xf (ix2 n d')) (fun k d' => Kt (ix2 d' k)) (fun k d' => V (ix2 k d')) d

/-- The result over the flattened rows and the transposed keys. -/
def flat (Xf : (⟨2, ![65536, 640]⟩ : Shape).Idx → EReal) (Kt : (⟨2, ![640, 64]⟩ : Shape).Idx → EReal)
    (V : (⟨2, ![64, 640]⟩ : Shape).Idx → EReal) : (⟨2, ![65536, 640]⟩ : Shape).Idx → EReal :=
  fun i => flatAt Xf Kt V (i 0) (i 1)

theorem whole_ix3 (X : (⟨3, ![16, 4096, 640]⟩ : Shape).Idx → EReal) (Mk Mv : (⟨2, ![64, 640]⟩ : Shape).Idx → EReal)
    (b : Fin 16) (r : Fin 4096) (d : Fin 640) : whole X Mk Mv (ix3 b r d) = wholeAt X Mk Mv b r d := rfl

theorem flat_ix2 (Xf : (⟨2, ![65536, 640]⟩ : Shape).Idx → EReal) (Kt : (⟨2, ![640, 64]⟩ : Shape).Idx → EReal)
    (V : (⟨2, ![64, 640]⟩ : Shape).Idx → EReal) (n : Fin 65536) (d : Fin 640) : flat Xf Kt V (ix2 n d) = flatAt Xf Kt V n d := rfl

end Cert.MemAttn

end
-- ==== Proof.RefAttend.lean ====
/-
  The reference program's result is `MemAttn.whole` of its three arguments, index by index.

  The reference computes, over [16, 4096, ·] arrays: the scores as one contraction of `x` with `Mk` over their last
  axes; each row's maximum (a fold of `max` from -∞ along the last axis, then `max` with -∞ again); the exponentials of
  the differences; their row sums (from 0); the quotients; and the contraction of the weights with `Mv`. Each stage is
  read at an index `(b, r, k)` or `(b, r)`; the keepdims broadcasts only carry `(b, r)` along. The one stage the
  generated reading leaves is the row maximum, read here as the fold over the 64 coordinates of the dropped axis.
-/
import proofs.«116638_j88072599372329_2_alg».proof.Proof.Gen.ReferenceIdeal.Read
import proofs.«116638_j88072599372329_2_alg».proof.Proof.Attend

noncomputable section

namespace Cert.MemAttn.Ref

open Cert.ReferenceIdeal Cert.ReferenceIdeal.Gen Cert.ReferenceIdeal.Read Idealize.ShloMosaic Idealize.ShloMosaic.ValueIdx Cert.MemAttn

variable (X : (⟨S16x4096x640, .f32⟩ : BufTy).Contents (Elt Ideal)) (Mk Mv : (⟨S64x640, .f32⟩ : BufTy).Contents (Elt Ideal))

/-- Row `(b, r)` of `x`. -/
abbrev xrow (b : Fin 16) (r : Fin 4096) : Fin 640 → EReal := fun d => X (ix3 b r d)
/-- A [64, 640] memory by rows. -/
abbrev rows (M : (⟨S64x640, .f32⟩ : BufTy).Contents (Elt Ideal)) : Fin 64 → Fin 640 → EReal := fun k d => M (ix2 k d)

/-! ## The index maps of the generated reading, at coordinates -/

theorem lidx0 (b : Fin 16) (r : Fin 4096) (k : Fin 64) (d : Fin 640) : lidx_main_v0 (ix3 b r k) d = ix3 b r d :=
  funext fun a => Fin.ext (by match a with | ⟨0, _⟩ => rfl | ⟨1, _⟩ => rfl | ⟨2, _⟩ => rfl)
theorem ridx0 (b : Fin 16) (r : Fin 4096) (k : Fin 64) (d : Fin 640) : ridx_main_v0 (ix3 b r k) d = ix2 k d :=
  funext fun a => Fin.ext (by match a with | ⟨0, _⟩ => rfl | ⟨1, _⟩ => rfl)
theorem idx45 (b : Fin 16) (r : Fin 4096) (k : Fin 64) : idx_main_v4 (idx_main_v5 (ix3 b r k)) = ix2 b r :=
  funext fun a => Fin.ext (by match a with | ⟨0, _⟩ => rfl | ⟨1, _⟩ => rfl)
theorem idx8 (b : Fin 16) (r : Fin 4096) (k : Fin 64) : idx_main_v8 (ix2 b r) k = ix3 b r k :=
  funext fun a => Fin.ext (by match a with | ⟨0, _⟩ => rfl | ⟨1, _⟩ => rfl | ⟨2, _⟩ => rfl)
theorem idx910 (b : Fin 16) (r : Fin 4096) (k : Fin 64) : idx_main_v9 (idx_main_v10 (ix3 b r k)) = ix2 b r :=
  funext fun a => Fin.ext (by match a with | ⟨0, _⟩ => rfl | ⟨1, _⟩ => rfl)
theorem lidx12 (b : Fin 16) (r : Fin 4096) (q : Fin 640) (k : Fin 64) : lidx_main_v12 (ix3 b r q) k = ix3 b r k :=
  funext fun a => Fin.ext (by match a with | ⟨0, _⟩ => rfl | ⟨1, _⟩ => rfl | ⟨2, _⟩ => rfl)
theorem ridx12 (b : Fin 16) (r : Fin 4096) (q : Fin 640) (k : Fin 64) : ridx_main_v12 (ix3 b r q) k = ix2 k q :=
  funext fun a => Fin.ext (by match a with | ⟨0, _⟩ => rfl | ⟨1, _⟩ => rfl)

/-! ## The stages, at an index -/

/-- The scores. -/
theorem scores_at (b : Fin 16) (r : Fin 4096) (k : Fin 64) :
    val_main_v0 (F := Ideal) X Mk (ix3 b r k) = score (xrow X b r) (rows Mk) k := by
  rw [val_main_v0_apply]
  unfold score
  exact Finset.sum_congr rfl fun d _ => by rw [lidx0, ridx0]

/-- The dropped axis put back into `(b, r)` at coordinate `k`. -/
theorem lift_at (h : S16x4096x64.Reduces [2] S16x4096) (b : Fin 16) (r : Fin 4096) (k : Fin 64) :
    h.lift (ix2 b r) k = ix3 b r k :=
  funext fun a => Fin.ext (by match a with | ⟨0, _⟩ => rfl | ⟨1, _⟩ => rfl | ⟨2, _⟩ => rfl)

/-- The row maximum: the fold of `max` from -∞ over the row's 64 scores. -/
theorem rowmax_at (b : Fin 16) (r : Fin 4096) :
    val_main_v1 (F := Ideal) X Mk (ix2 b r) = (Finset.univ : Finset (Fin 64)).fold max negInf (score (xrow X b r) (rows Mk)) := by
  have h : S16x4096x64.Reduces [2] S16x4096 := by decide
  unfold val_main_v1
  rw [Host.reduce_eq_fold_single FloatOps.maximumf _ _ reducesTo_S16x4096x64_S16x4096_d2 h h_S_]
  have e : (val_main_v0 (F := Ideal) X Mk ∘ h.lift (ix2 b r)) = score (xrow X b r) (rows Mk) :=
    funext fun k : Fin 64 => (congrArg (val_main_v0 (F := Ideal) X Mk) (lift_at h b r k)).trans (scores_at X Mk b r k)
  rw [e]
  rfl

/-- The maximum once more against -∞, carried along the row. -/
theorem max_at (b : Fin 16) (r : Fin 4096) (k : Fin 64) :
    val_main_v5 (F := Ideal) X Mk (ix3 b r k) = rowMax (score (xrow X b r) (rows Mk)) := by
  rw [val_main_v5_apply, val_main_v4_apply, idx45, val_main_v3_apply, rowmax_at]
  rfl

/-- The exponentials. -/
theorem expo_at (b : Fin 16) (r : Fin 4096) (k : Fin 64) :
    val_main_v7 (F := Ideal) X Mk (ix3 b r k) = expo (score (xrow X b r) (rows Mk)) k := by
  rw [val_main_v7_apply, val_main_v6_apply, max_at, scores_at]
  rfl

/-- Their row sums, from zero. -/
theorem sum_at (b : Fin 16) (r : Fin 4096) :
    val_main_v8 (F := Ideal) X Mk (ix2 b r) = ∑ k : Fin 64, expo (score (xrow X b r) (rows Mk)) k := by
  rw [val_main_v8_apply]
  show Ideal.ofBits .f32 0x00000000#32 + _ = _
  rw [Ideal.ofBits_zero_f32, zero_add]
  exact Finset.sum_congr rfl fun k _ => by rw [idx8, expo_at]

/-- The weights. -/
theorem weight_at (b : Fin 16) (r : Fin 4096) (k : Fin 64) :
    val_main_v11 (F := Ideal) X Mk (ix3 b r k) = weight (score (xrow X b r) (rows Mk)) k := by
  rw [val_main_v11_apply, val_main_v10_apply, val_main_v9_apply, idx910, sum_at, expo_at]
  rfl

/-- The reference's result is the attention function of its arguments. -/
theorem result_eq : val_main_v12 (F := Ideal) X Mk Mv = whole X Mk Mv := by
  funext i
  obtain ⟨b, r, q, rfl⟩ : ∃ (b : Fin 16) (r : Fin 4096) (q : Fin 640), i = ix3 b r q := ⟨i 0, i 1, i 2, eq_ix3 i⟩
  rw [val_main_v12_apply, whole_ix3]
  unfold wholeAt attend
  exact Finset.sum_congr rfl fun k _ => by rw [lidx12, ridx12, weight_at]

end Cert.MemAttn.Ref

end
-- ==== Proof.LibColumns.lean ====
/-
  Two-dimensional layout operations and row sums read at an index `(r, k)`, for matrices of `n` rows.
  Each lemma says which single entry of the operand an entry of the result is: a vector turned into a one-column matrix and
  back, a one-column matrix repeated along its rows, a scalar repeated everywhere, five one-column matrices put side by
  side, a ten-column and a five-column matrix put side by side, and the sum of a row's entries (a lane reduction, and the
  host's reduce, which adds the initial value). Nothing here depends on a program.
-/
import Idealize.ShloMosaic.Lib.Pipeline.Value
import Idealize.ShloMosaic.Lib.ValueIdx
import Idealize.ShloMosaic.PureOps.Ideal.Laws

noncomputable section

open scoped BigOperators

namespace Cert.LibColumns

open Idealize.ShloMosaic Idealize.ShloMosaic.ValueIdx

variable {α : Type}

/-- A vector of length `n` reshaped to an `n × 1` matrix: entry `(r, 0)` is entry `r`. -/
theorem shapeCast_vec_col {n : Nat} (v : (⟨1, ![n]⟩ : Shape).Idx → α)
    (h : (⟨1, ![n]⟩ : Shape).ShapeCasts ⟨2, ![n, 1]⟩) (r : Fin n) :
    shapeCast ⟨2, ![n, 1]⟩ v h (ix2 r 0) = v (ix1 r) :=
  shapeCast_apply v h (ix2 r 0) (ix1 r) (by
    rw [Shape.rowMajor_val_one, Shape.rowMajor_val_two]
    show r.val = r.val * 1 + 0
    omega)

/-- An `n × 1` matrix reshaped to a vector of length `n`: entry `r` is entry `(r, 0)`. -/
theorem shapeCast_col_vec {n : Nat} (v : (⟨2, ![n, 1]⟩ : Shape).Idx → α)
    (h : (⟨2, ![n, 1]⟩ : Shape).ShapeCasts ⟨1, ![n]⟩) (r : Fin n) :
    shapeCast ⟨1, ![n]⟩ v h (ix1 r) = v (ix2 r 0) :=
  shapeCast_apply v h (ix1 r) (ix2 r 0) (by
    rw [Shape.rowMajor_val_one, Shape.rowMajor_val_two]
    show r.val * 1 + 0 = r.val
    omega)

/-- An `n × 1` matrix repeated to `n × m` (a vector broadcast): entry `(r, j)` is entry `(r, 0)`. -/
theorem broadcastTo_col {n m : Nat} (v : (⟨2, ![n, 1]⟩ : Shape).Idx → α)
    (h : (⟨2, ![n, 1]⟩ : Shape).Broadcasts ⟨2, ![n, m]⟩) (r : Fin n) (j : Fin m) :
    broadcastTo ⟨2, ![n, m]⟩ v h (ix2 r j) = v (ix2 r 0) :=
  broadcastTo_apply v h (ix2 r j) (ix2 r 0) (fun a => by
    match a with
    | ⟨0, _⟩ =>
      show r.val = if n = 1 then 0 else r.val
      have := r.isLt
      split <;> omega
    | ⟨1, _⟩ => exact (if_pos rfl).symm)

/-- A vector of length `n` placed as the column of an `n × 1` matrix by a broadcast along axis 0. -/
theorem broadcastInDim_vec_col {n : Nat} (dims : Fin 1 → Fin 2) (hd : dims 0 = 0)
    (h : (⟨1, ![n]⟩ : Shape).BroadcastsInDim ⟨2, ![n, 1]⟩ dims) (v : (⟨1, ![n]⟩ : Shape).Idx → α) (r : Fin n) :
    broadcastInDim ⟨2, ![n, 1]⟩ dims h v (ix2 r 0) = v (ix1 r) :=
  broadcastInDim_apply dims h v (ix2 r 0) (ix1 r) (fun a => by
    match a with
    | ⟨0, _⟩ =>
      show r.val = if n = 1 then 0 else (ix2 r (0 : Fin 1) (dims 0)).val
      rw [hd]
      show r.val = if n = 1 then 0 else r.val
      have := r.isLt
      split <;> omega)

/-- An `n × 1` matrix repeated to `n × m` by a broadcast along both axes: entry `(r, j)` is entry `(r, 0)`. -/
theorem broadcastInDim_col_mat {n m : Nat} (dims : Fin 2 → Fin 2) (hd0 : dims 0 = 0) (hd1 : dims 1 = 1)
    (h : (⟨2, ![n, 1]⟩ : Shape).BroadcastsInDim ⟨2, ![n, m]⟩ dims) (v : (⟨2, ![n, 1]⟩ : Shape).Idx → α)
    (r : Fin n) (j : Fin m) :
    broadcastInDim ⟨2, ![n, m]⟩ dims h v (ix2 r j) = v (ix2 r 0) :=
  broadcastInDim_apply dims h v (ix2 r j) (ix2 r 0) (fun a => by
    match a with
    | ⟨0, _⟩ =>
      show r.val = if n = 1 then 0 else (ix2 r j (dims 0)).val
      rw [hd0]
      show r.val = if n = 1 then 0 else r.val
      have := r.isLt
      split <;> omega
    | ⟨1, _⟩ => exact (if_pos rfl).symm)

/-- A scalar repeated over any shape: every entry is the scalar. -/
theorem broadcastInDim_scalar {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

/-- Five `n × 1` matrices side by side, read at `(r, k)`: the `k`-th of them at `(r, 0)`. -/
theorem concat5_apply {n : Nat} (p0 p1 p2 p3 p4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (r : Fin n) (k : Fin 5) :
    concatenate ⟨2, ![n, 5]⟩ 1 [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r k)
      = (match k with | ⟨0, _⟩ => p0 | ⟨1, _⟩ => p1 | ⟨2, _⟩ => p2 | ⟨3, _⟩ => p3 | ⟨4, _⟩ => p4) (ix2 r 0) := by
  have hi : ∀ (k : Fin 5) (b : Fin 2), b.cast rfl ≠ (1 : Fin 2) → ((ix2 r (0 : Fin 1)) b).val = ((ix2 r k) (b.cast rfl)).val := by
    intro k b hb
    match b with
    | ⟨0, _⟩ => rfl
    | ⟨1, _⟩ => exact absurd rfl hb
  match k with
  | ⟨0, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨0, hk⟩)
      0 (by simp) ⟨2, ![n, 1]⟩ p0 rfl rfl 0 rfl (ix2 r 0) (hi _) rfl
  | ⟨1, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨1, hk⟩)
      1 (by simp) ⟨2, ![n, 1]⟩ p1 rfl rfl 1 rfl (ix2 r 0) (hi _) rfl
  | ⟨2, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨2, hk⟩)
      2 (by simp) ⟨2, ![n, 1]⟩ p2 rfl rfl 2 rfl (ix2 r 0) (hi _) rfl
  | ⟨3, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨3, hk⟩)
      3 (by simp) ⟨2, ![n, 1]⟩ p3 rfl rfl 3 rfl (ix2 r 0) (hi _) rfl
  | ⟨4, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨4, hk⟩)
      4 (by simp) ⟨2, ![n, 1]⟩ p4 rfl rfl 4 rfl (ix2 r 0) (hi _) rfl

/-- An `n × 10` and an `n × 5` matrix side by side, read in the first ten columns. -/
theorem concat_10_5_left {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 10)
    (hc : c'.val = c.val) :
    concatenate ⟨2, ![n, 15]⟩ 1 [⟨⟨2, ![n, 10]⟩, a⟩, ⟨⟨2, ![n, 5]⟩, b⟩] h (ix2 r c) = a (ix2 r c') :=
  concatenate_pair_apply_left 1 a b h (ix2 r c) rfl (ix2 r c') (fun d => by
    match d with
    | ⟨0, _⟩ => rfl
    | ⟨1, _⟩ => exact hc)

/-- … and in the last five. -/
theorem concat_10_5_right {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 5)
    (hc : c'.val + 10 = c.val) :
    concatenate ⟨2, ![n, 15]⟩ 1 [⟨⟨2, ![n, 10]⟩, a⟩, ⟨⟨2, ![n, 5]⟩, b⟩] h (ix2 r c) = b (ix2 r c') :=
  concatenate_pair_apply_right 1 a b h (ix2 r c) rfl rfl (ix2 r c') (fun d hd => by
    match d with
    | ⟨0, _⟩ => rfl
    | ⟨1, _⟩ => exact absurd rfl hd) hc

/-- The index over row `r` with `k` inserted on the summed axis is `(r, k)`. -/
theorem lift_rows {n m : Nat} (h : (⟨2, ![n, m]⟩ : Shape).Reduces [1] ⟨1, ![n]⟩) (r : Fin n) (k : Fin m) :
    h.lift (ix1 r) k = ix2 r k := by
  funext c
  apply Fin.ext
  match c with
  | ⟨0, _⟩ => rfl
  | ⟨1, _⟩ => rfl

/-- A lane reduction by addition of an `n × m` matrix along its rows, on the extended reals: the sum of the row. -/
theorem multiReduction_rows {n m : Nat} (src : FVec Ideal ⟨2, ![n, m]⟩ .f32)
    (h : (⟨2, ![n, m]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ k : Fin m, src (ix2 r k) :=
  (Ideal.multiReduction_add_single src 0x00000000#32 h hφ hacc (ix1 r)).trans
    (Finset.sum_congr rfl fun k _ => congrArg src (lift_rows h r k))

/-- The host's sum of an `n × m` matrix along its rows, on the extended reals: the initial value plus the sum of the row. -/
theorem hostReduceAdd_rows {n m : Nat} (x : FVec Ideal ⟨2, ![n, m]⟩ .f32) (init : (⟨0, ![]⟩ : Shape).Idx → EReal)
    (h' : (⟨2, ![n, m]⟩ : Shape).ReducesTo [1] ⟨1, ![n]⟩) (hu : 0 < (⟨0, ![]⟩ : Shape).numel)
    (h : (⟨2, ![n, m]⟩ : Shape).Reduces [1] ⟨1, ![n]⟩) (r : Fin n) :
    Host.reduceAdd (F := Ideal) x init h' hu (ix1 r) = init ix0 + ∑ k : Fin m, x (ix2 r k) := by
  have e0 : Shape.Idx.first hu = ix0 := funext fun a => a.elim0
  show Ideal.hostReduceAdd h' x (init (Shape.Idx.first hu)) (ix1 r) = _
  rw [e0]
  exact (Ideal.hostReduceAdd_single h' h x (init ix0) (ix1 r)).trans
    (congrArg (init ix0 + ·) (Finset.sum_congr rfl fun k _ => congrArg x (lift_rows h r k)))

end Cert.LibColumns

end
-- ==== Proof.Payload.lean ====
/-
  What the kernel's body computes from its three loaded blocks, read at a row `p` and a column.

  The body takes a block of 2048 rows of `x` ([2048, 640]), the transposed keys ([640, 64]) and the values ([64, 640]).
  It forms the 2048 × 64 scores as a matrix product into a zero accumulator, takes each row's maximum (a lane reduction
  from -∞, then `max` with -∞), subtracts it along the row, exponentiates, sums each row, divides along the row, and
  multiplies the 2048 × 64 weights into the values. Every narrowing to bf16 on the way into a product is the identity on
  the extended reals. Row `p` of the result is therefore `MemAttn.attend` of row `p` of the block against the keys
  read by columns and the values read by rows.
-/
import proofs.«116638_j88072599372329_2_alg».proof.Proof.Gen.KernelIdeal.Skeleton
import proofs.«116638_j88072599372329_2_alg».proof.Proof.Attend
import proofs.«116638_j88072599372329_2_alg».proof.Proof.LibColumns
import Idealize.ShloMosaic.Lib.Pipeline.Value
import Idealize.ShloMosaic.Lib.ValueIdx
import Idealize.ShloMosaic.PureOps.Ideal.Laws

noncomputable section

namespace Cert.MemAttn.Body

open Cert.KernelIdeal Cert.KernelIdeal.Gen Idealize.ShloMosaic Idealize.ShloMosaic.ValueIdx Cert.MemAttn Cert.LibColumns

variable (x0 : Vec Ideal S2048x640 .f32) (x1 : Vec Ideal S640x64 .f32) (x2 : Vec Ideal S64x640 .f32)

/-! ## The body's intermediate values, named -/

/-- The block of scores: rows of `x` against the transposed keys. -/
def scoresB : FVec Ideal S2048x64 .f32 :=
  matmul dot_S2048x640_S640x64_S2048x64_1_0_0_1_n_n none
    (truncf .bf16 (shapeCast S2048x640 x0 shapeCasts_S2048x640_S2048x640) bitsLt_bf16_f32)
    (truncf .bf16 (shapeCast S640x64 x1 shapeCasts_S640x64_S640x64) bitsLt_bf16_f32)
    (constant (F := Ideal) S2048x64 .f32 0x00000000#32)

/-- Each row's maximum score. -/
def maxB : FVec Ideal S2048 .f32 :=
  maximumf (broadcast S2048 (Scalar.ofBits (F := Ideal) .f32 0xFF800000#32))
    (multiReduction .maximumf [1] S2048 (scoresB x0 x1) 0xFF800000#32 reduces_S2048x64_S2048 (.inl rfl) rfl)

/-- The exponentials of the scores' distances below their row's maximum. -/
def expB : FVec Ideal S2048x64 .f32 :=
  exp (subf (scoresB x0 x1)
    (broadcastTo S2048x64 (shapeCast S2048x1 (maxB x0 x1) shapeCasts_S2048_S2048x1) broadcasts_S2048x1_S2048x64))

/-- Their row sums. -/
def sumB : FVec Ideal S2048 .f32 :=
  multiReduction .add [1] S2048 (expB x0 x1) 0x00000000#32 reduces_S2048x64_S2048 (.inl rfl) rfl

/-- The softmax weights. -/
def weightB : FVec Ideal S2048x64 .f32 :=
  divf (expB x0 x1)
    (broadcastTo S2048x64 (shapeCast S2048x1 (sumB x0 x1) shapeCasts_S2048_S2048x1) broadcasts_S2048x1_S2048x64)

/-- The stored value is the weights multiplied into the values. -/
theorem pay_eq : k0_pay1 (F := Ideal) x0 x1 x2
    = matmul dot_S2048x64_S64x640_S2048x640_1_0_0_1_n_n none (truncf .bf16 (weightB x0 x1) bitsLt_bf16_f32)
        (truncf .bf16 x2 bitsLt_bf16_f32) (constant (F := Ideal) S2048x640 .f32 0x00000000#32) := rfl

/-! ## The two products at an index: a sum over the contracted coordinate -/

theorem lhs1_0 (i : S2048x64.Idx) (q : dot_S2048x640_S640x64_S2048x64_1_0_0_1_n_n.contr.Idx) :
    (dot_S2048x640_S640x64_S2048x64_1_0_0_1_n_n.lhsIdx i q 0).val = (i 0).val := by
  unfold DotDims.lhsIdx
  rw [dif_neg (show ¬(0 : Fin S2048x640.rank) ∈ dot_S2048x640_S640x64_S2048x64_1_0_0_1_n_n.lhsBatch by decide), dif_pos (show (0 : Fin S2048x640.rank) ∈ dot_S2048x640_S640x64_S2048x64_1_0_0_1_n_n.lhsNonContracting by decide)]
  rfl
theorem lhs1_1 (i : S2048x64.Idx) (q : dot_S2048x640_S640x64_S2048x64_1_0_0_1_n_n.contr.Idx) :
    (dot_S2048x640_S640x64_S2048x64_1_0_0_1_n_n.lhsIdx i q 1).val = (q ⟨0, by decide⟩).val :=
  dot_S2048x640_S640x64_S2048x64_1_0_0_1_n_n.lhsIdx_val_of_single rfl i q
theorem rhs1_0 (i : S2048x64.Idx) (q : dot_S2048x640_S640x64_S2048x64_1_0_0_1_n_n.contr.Idx) :
    (dot_S2048x640_S640x64_S2048x64_1_0_0_1_n_n.rhsIdx i q 0).val = (q ⟨0, by decide⟩).val :=
  dot_S2048x640_S640x64_S2048x64_1_0_0_1_n_n.rhsIdx_val_of_single rfl i q
theorem rhs1_1 (i : S2048x64.Idx) (q : dot_S2048x640_S640x64_S2048x64_1_0_0_1_n_n.contr.Idx) :
    (dot_S2048x640_S640x64_S2048x64_1_0_0_1_n_n.rhsIdx i q 1).val = (i 1).val := by
  unfold DotDims.rhsIdx
  rw [dif_neg (show ¬(1 : Fin S640x64.rank) ∈ dot_S2048x640_S640x64_S2048x64_1_0_0_1_n_n.rhsBatch by decide), dif_pos (show (1 : Fin S640x64.rank) ∈ dot_S2048x640_S640x64_S2048x64_1_0_0_1_n_n.rhsNonContracting by decide)]
  rfl

/-- The first product at `(p, k)`: the inner product of row `p` of the left factor and column `k` of the right. -/
theorem mm1_at (a : FVec Ideal S2048x640 .bf16) (b : FVec Ideal S640x64 .bf16) (p : Fin 2048) (k : Fin 64) :
    matmul dot_S2048x640_S640x64_S2048x64_1_0_0_1_n_n none a b (constant (F := Ideal) S2048x64 .f32 0x00000000#32) (ix2 p k)
      = ∑ d : Fin 640, a (ix2 p d) * b (ix2 d k) := by
  refine (Ideal.matmul_constant_zero_apply dot_S2048x640_S640x64_S2048x64_1_0_0_1_n_n none a b (ix2 p k)).trans ?_
  rw [← Equiv.sum_comp (contrEquiv1 dot_S2048x640_S640x64_S2048x64_1_0_0_1_n_n 640 rfl rfl).symm]
  refine Finset.sum_congr rfl fun d _ => ?_
  have hd := contrEquiv1_symm_val dot_S2048x640_S640x64_S2048x64_1_0_0_1_n_n 640 rfl rfl d
  have el : dot_S2048x640_S640x64_S2048x64_1_0_0_1_n_n.lhsIdx (ix2 p k) ((contrEquiv1 dot_S2048x640_S640x64_S2048x64_1_0_0_1_n_n 640 rfl rfl).symm d) = ix2 p d := funext fun c => Fin.ext (by
    match c with
    | ⟨0, _⟩ => exact lhs1_0 _ _
    | ⟨1, _⟩ => exact (lhs1_1 _ _).trans hd)
  have er : dot_S2048x640_S640x64_S2048x64_1_0_0_1_n_n.rhsIdx (ix2 p k) ((contrEquiv1 dot_S2048x640_S640x64_S2048x64_1_0_0_1_n_n 640 rfl rfl).symm d) = ix2 d k := funext fun c => Fin.ext (by
    match c with
    | ⟨0, _⟩ => exact (rhs1_0 _ _).trans hd
    | ⟨1, _⟩ => exact rhs1_1 _ _)
  rw [el, er]

theorem lhs2_0 (i : S2048x640.Idx) (q : dot_S2048x64_S64x640_S2048x640_1_0_0_1_n_n.contr.Idx) :
    (dot_S2048x64_S64x640_S2048x640_1_0_0_1_n_n.lhsIdx i q 0).val = (i 0).val := by
  unfold DotDims.lhsIdx
  rw [dif_neg (show ¬(0 : Fin S2048x64.rank) ∈ dot_S2048x64_S64x640_S2048x640_1_0_0_1_n_n.lhsBatch by decide), dif_pos (show (0 : Fin S2048x64.rank) ∈ dot_S2048x64_S64x640_S2048x640_1_0_0_1_n_n.lhsNonContracting by decide)]
  rfl
theorem lhs2_1 (i : S2048x640.Idx) (q : dot_S2048x64_S64x640_S2048x640_1_0_0_1_n_n.contr.Idx) :
    (dot_S2048x64_S64x640_S2048x640_1_0_0_1_n_n.lhsIdx i q 1).val = (q ⟨0, by decide⟩).val :=
  dot_S2048x64_S64x640_S2048x640_1_0_0_1_n_n.lhsIdx_val_of_single rfl i q
theorem rhs2_0 (i : S2048x640.Idx) (q : dot_S2048x64_S64x640_S2048x640_1_0_0_1_n_n.contr.Idx) :
    (dot_S2048x64_S64x640_S2048x640_1_0_0_1_n_n.rhsIdx i q 0).val = (q ⟨0, by decide⟩).val :=
  dot_S2048x64_S64x640_S2048x640_1_0_0_1_n_n.rhsIdx_val_of_single rfl i q
theorem rhs2_1 (i : S2048x640.Idx) (q : dot_S2048x64_S64x640_S2048x640_1_0_0_1_n_n.contr.Idx) :
    (dot_S2048x64_S64x640_S2048x640_1_0_0_1_n_n.rhsIdx i q 1).val = (i 1).val := by
  unfold DotDims.rhsIdx
  rw [dif_neg (show ¬(1 : Fin S64x640.rank) ∈ dot_S2048x64_S64x640_S2048x640_1_0_0_1_n_n.rhsBatch by decide), dif_pos (show (1 : Fin S64x640.rank) ∈ dot_S2048x64_S64x640_S2048x640_1_0_0_1_n_n.rhsNonContracting by decide)]
  rfl

/-- The second product at `(p, q)`. -/
theorem mm2_at (a : FVec Ideal S2048x64 .bf16) (b : FVec Ideal S64x640 .bf16) (p : Fin 2048) (q : Fin 640) :
    matmul dot_S2048x64_S64x640_S2048x640_1_0_0_1_n_n none a b (constant (F := Ideal) S2048x640 .f32 0x00000000#32) (ix2 p q)
      = ∑ k : Fin 64, a (ix2 p k) * b (ix2 k q) := by
  refine (Ideal.matmul_constant_zero_apply dot_S2048x64_S64x640_S2048x640_1_0_0_1_n_n none a b (ix2 p q)).trans ?_
  rw [← Equiv.sum_comp (contrEquiv1 dot_S2048x64_S64x640_S2048x640_1_0_0_1_n_n 64 rfl rfl).symm]
  refine Finset.sum_congr rfl fun k _ => ?_
  have hk := contrEquiv1_symm_val dot_S2048x64_S64x640_S2048x640_1_0_0_1_n_n 64 rfl rfl k
  have el : dot_S2048x64_S64x640_S2048x640_1_0_0_1_n_n.lhsIdx (ix2 p q) ((contrEquiv1 dot_S2048x64_S64x640_S2048x640_1_0_0_1_n_n 64 rfl rfl).symm k) = ix2 p k := funext fun c => Fin.ext (by
    match c with
    | ⟨0, _⟩ => exact lhs2_0 _ _
    | ⟨1, _⟩ => exact (lhs2_1 _ _).trans hk)
  have er : dot_S2048x64_S64x640_S2048x640_1_0_0_1_n_n.rhsIdx (ix2 p q) ((contrEquiv1 dot_S2048x64_S64x640_S2048x640_1_0_0_1_n_n 64 rfl rfl).symm k) = ix2 k q := funext fun c => Fin.ext (by
    match c with
    | ⟨0, _⟩ => exact (rhs2_0 _ _).trans hk
    | ⟨1, _⟩ => exact rhs2_1 _ _)
  rw [el, er]

/-! ## A row's maximum, and a per-row value carried along its row -/

/-- A lane reduction by `max` of a 2048 × 64 block along its rows: the fold of `max` from -∞ over the row. -/
theorem rowfold_at (src : FVec Ideal S2048x64 .f32) (hφ : FKind.Formats .f32)
    (hacc : (0xFF800000#32 : BitVec 32) = FKind.maximumf.neutral .f32 hφ) (p : Fin 2048) :
    multiReduction .maximumf [1] S2048 src 0xFF800000#32 reduces_S2048x64_S2048 hφ hacc (ix1 p)
      = (Finset.univ : Finset (Fin 64)).fold max negInf (fun k => src (ix2 p k)) := by
  refine (Ideal.multiReduction_maximumf_single src 0xFF800000#32 reduces_S2048x64_S2048 hφ hacc (ix1 p)).trans ?_
  have e : (src ∘ reduces_S2048x64_S2048.lift (ix1 p)) = fun k : Fin 64 => src (ix2 p k) :=
    funext fun k => congrArg src (lift_rows reduces_S2048x64_S2048 p k)
  rw [e]
  rfl

/-- A value per row, made a column and repeated along the row, read at `(p, k)`: the row's value. -/
theorem along_row (v : FVec Ideal S2048 .f32) (p : Fin 2048) (k : Fin 64) :
    broadcastTo S2048x64 (shapeCast S2048x1 v shapeCasts_S2048_S2048x1) broadcasts_S2048x1_S2048x64 (ix2 p k) = v (ix1 p) :=
  (broadcastTo_col _ broadcasts_S2048x1_S2048x64 p k).trans (shapeCast_vec_col v shapeCasts_S2048_S2048x1 p)

/-! ## The stages at a row -/

/-- Row `p` of the block. -/
abbrev brow (p : Fin 2048) : Fin 640 → EReal := fun d => x0 (ix2 p d)
/-- The keys, from their transposed block. -/
abbrev keysT : Fin 64 → Fin 640 → EReal := fun k d => x1 (ix2 d k)
/-- The values by rows. -/
abbrev vals : Fin 64 → Fin 640 → EReal := fun k d => x2 (ix2 k d)

theorem scores_at (p : Fin 2048) (k : Fin 64) : scoresB x0 x1 (ix2 p k) = score (brow x0 p) (keysT x1) k := by
  unfold scoresB
  refine (mm1_at _ _ p k).trans ?_
  unfold score
  refine Finset.sum_congr rfl fun d _ => ?_
  show shapeCast S2048x640 x0 shapeCasts_S2048x640_S2048x640 (ix2 p d) * shapeCast S640x64 x1 shapeCasts_S640x64_S640x64 (ix2 d k) = _
  rw [shapeCast_self, shapeCast_self]

theorem max_at (p : Fin 2048) : maxB x0 x1 (ix1 p) = rowMax (score (brow x0 p) (keysT x1)) := by
  unfold maxB rowMax
  show max negInf (multiReduction .maximumf [1] S2048 (scoresB x0 x1) 0xFF800000#32 reduces_S2048x64_S2048 (.inl rfl) rfl (ix1 p)) = _
  refine congrArg (max negInf) ?_
  refine (rowfold_at (scoresB x0 x1) (.inl rfl) rfl p).trans ?_
  exact congrArg (fun f => (Finset.univ : Finset (Fin 64)).fold max negInf f) (funext fun k => scores_at x0 x1 p k)

theorem expo_at (p : Fin 2048) (k : Fin 64) : expB x0 x1 (ix2 p k) = expo (score (brow x0 p) (keysT x1)) k := by
  unfold expB expo
  show Ideal.exp (scoresB x0 x1 (ix2 p k)
    - broadcastTo S2048x64 (shapeCast S2048x1 (maxB x0 x1) shapeCasts_S2048_S2048x1) broadcasts_S2048x1_S2048x64 (ix2 p k)) = _
  rw [along_row, max_at, scores_at]

theorem sum_at (p : Fin 2048) : sumB x0 x1 (ix1 p) = ∑ k : Fin 64, expo (score (brow x0 p) (keysT x1)) k := by
  unfold sumB
  refine (multiReduction_rows (expB x0 x1) reduces_S2048x64_S2048 (.inl rfl) rfl p).trans ?_
  exact Finset.sum_congr rfl fun k _ => expo_at x0 x1 p k

theorem weight_at (p : Fin 2048) (k : Fin 64) : weightB x0 x1 (ix2 p k) = weight (score (brow x0 p) (keysT x1)) k := by
  unfold weightB weight
  show Ideal.div (expB x0 x1 (ix2 p k))
    (broadcastTo S2048x64 (shapeCast S2048x1 (sumB x0 x1) shapeCasts_S2048_S2048x1) broadcasts_S2048x1_S2048x64 (ix2 p k)) = _
  rw [along_row, sum_at, expo_at]

/-- THE BODY'S RESULT at `(p, q)`: the attention of row `p` of the block, at column `q`. -/
theorem pay_at (p : Fin 2048) (q : Fin 640) :
    k0_pay1 (F := Ideal) x0 x1 x2 (ix2 p q) = attend (brow x0 p) (keysT x1) (vals x2) q := by
  rw [pay_eq]
  refine (mm2_at _ _ p q).trans ?_
  unfold attend
  refine Finset.sum_congr rfl fun k _ => ?_
  show weightB x0 x1 (ix2 p k) * x2 (ix2 k q) = _
  rw [weight_at]

end Cert.MemAttn.Body

end
-- ==== Proof.Blocks.lean ====
/-
  From blocks to the array: after the 32 grid points the kernel's output array holds `MemAttn.flat` of the three arrays
  the region reads — the 65536 flattened rows, the transposed keys and the values.

  Point `t` reads rows `2048 t … 2048 t + 2047` of the flattened rows, the whole of the transposed keys and the whole of
  the values, and writes rows `2048 t … 2048 t + 2047` of the output. Row `p` of what it writes depends only on row `p` of
  its block of rows, so it is row `2048 t + p` of `flat`. Row `r` of the output is written by point `r / 2048`, so the 32
  blocks cover the array.
-/
import proofs.«116638_j88072599372329_2_alg».proof.Proof.Gen.KernelIdeal.Frame
import proofs.«116638_j88072599372329_2_alg».proof.Proof.Payload
import Idealize.ShloMosaic.Lib.Pipeline.Value

noncomputable section

namespace Cert.MemAttn.Blocks

open Cert.KernelIdeal Cert.KernelIdeal.Gen Idealize.ShloMosaic Idealize.ShloMosaic.TcCoe Idealize.SL.Sem
open Idealize.ShloMosaic.ValueIdx Cert.MemAttn
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the rows' and the output's block index is the point, every other is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks, read off the arrays the region finds -/

/-- Row `p` of point `t`'s block of rows is row `2048 t + p` of the flattened rows. -/
theorem rows_at (c : Dev nD) (t : Fin cfg0.N) (p : Fin 2048) (d : Fin 640) (n : Fin 65536) (hn : n.val = t.val * 2048 + p.val) :
    (iblk m c 0 t : Vec Ideal S2048x640 .f32) (ix2 p d) = (V m c main_v0 : S65536x640.Idx → EReal) (ix2 n d) := by
  obtain ⟨e0, e1, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 2) * 2048 + 1 * p.val = n.val; rw [e0, hn]; omega
  | ⟨1, _⟩ => show win0_0.index t (1 : Fin 2) * 640 + 1 * d.val = d.val; rw [e1]; omega

/-- Every point's block of the transposed keys is the whole array. -/
theorem keys_at (c : Dev nD) (t : Fin cfg0.N) (i : S640x64.Idx) :
    (iblk m c 1 t : Vec Ideal S640x64 .f32) i = (V m c main_v1 : S640x64.Idx → EReal) i := by
  obtain ⟨-, -, e2, e3, -⟩ := idx_facts t
  unfold iblk
  rw [View.read_apply]
  show V m c main_v1 _ = V m c main_v1 _
  refine congrArg (V m c main_v1) (funext fun a => Fin.ext ?_)
  match a with
  | ⟨0, _⟩ => show win0_1.index t (0 : Fin 2) * 640 + 1 * (i 0).val = (i 0).val; rw [e2]; omega
  | ⟨1, _⟩ => show win0_1.index t (1 : Fin 2) * 64 + 1 * (i 1).val = (i 1).val; rw [e3]; omega

/-- Every point's block of the values is the whole array. -/
theorem vals_at (c : Dev nD) (t : Fin cfg0.N) (i : S64x640.Idx) :
    (iblk m c 2 t : Vec Ideal S64x640 .f32) i = (V m c main_arg2 : S64x640.Idx → EReal) i := by
  obtain ⟨-, -, -, -, e4, e5, -⟩ := idx_facts t
  unfold iblk
  rw [View.read_apply]
  show V m c main_arg2 _ = V m c main_arg2 _
  refine congrArg (V m c main_arg2) (funext fun a => Fin.ext ?_)
  match a with
  | ⟨0, _⟩ => show win0_2.index t (0 : Fin 2) * 64 + 1 * (i 0).val = (i 0).val; rw [e4]; omega
  | ⟨1, _⟩ => show win0_2.index t (1 : Fin 2) * 640 + 1 * (i 1).val = (i 1).val; rw [e5]; omega

/-! ## One point's result is its rows of `flat` -/

/-- Over any three blocks whose row `p` is row `n` of `Xf` and whose other two are `Kt` and `Vv`: the body's result
    at `(p, q)` is `flat Xf Kt Vv` at `(n, q)`. -/
theorem point_eq (x0 : Vec Ideal S2048x640 .f32) (x1 : Vec Ideal S640x64 .f32) (x2 : Vec Ideal S64x640 .f32)
    (Xf : S65536x640.Idx → EReal) (Kt : S640x64.Idx → EReal) (Vv : S64x640.Idx → EReal)
    (j : S2048x640.Idx) (i : S65536x640.Idx) (p : Fin 2048) (q : Fin 640) (n : Fin 65536)
    (hj0 : (j 0).val = p.val) (hj1 : (j 1).val = q.val) (hi0 : (i 0).val = n.val) (hi1 : (i 1).val = q.val)
    (h0 : ∀ d : Fin 640, x0 (ix2 p d) = Xf (ix2 n d)) (h1 : ∀ i, x1 i = Kt i) (h2 : ∀ i, x2 i = Vv i) :
    k0_pay1 (F := Ideal) x0 x1 x2 j = flat Xf Kt Vv i := by
  obtain rfl : j = ix2 p q := funext fun a => Fin.ext (by match a with | ⟨0, _⟩ => exact hj0 | ⟨1, _⟩ => exact hj1)
  obtain rfl : i = ix2 n q := funext fun a => Fin.ext (by match a with | ⟨0, _⟩ => exact hi0 | ⟨1, _⟩ => exact hi1)
  rw [Body.pay_at, flat_ix2]
  unfold flatAt
  have e0 : Body.brow x0 p = fun d' => Xf (ix2 n d') := funext h0
  have e1 : Body.keysT x1 = fun k d' => Kt (ix2 d' k) := funext fun k => funext fun d' => h1 _
  have e2 : Body.vals x2 = fun k d' => Vv (ix2 k d') := funext fun k => funext fun d' => h2 _
  rw [e0, e1, e2]

/-- WHAT POINT `t` WRITES BACK is block `t` of `flat` of the arrays as the region finds them. -/
theorem flushed_eq (c : Dev nD) (t : Fin cfg0.N) :
    (dats m 0 c).flushed 3 t
      = ((cfg0.win 3).blk t).view.read (Elt Ideal) (flat (V m c main_v0) (V m c main_v1) (V m c main_arg2)) := by
  show (cfg0.win 3).cut (grid0.coords t) ((dats m 0 c).after 3 t) = _
  rw [after0_3]
  unfold out0_3
  rw [View.canon_unit_zero hz]
  simp only [View.ld_unit_zero (S := S2048x640) hz, View.ld_unit_zero (S := S640x64) hz, View.ld_unit_zero (S := S64x640) hz]
  obtain ⟨-, -, -, -, -, -, e6, e7⟩ := idx_facts t
  have hN : cfg0.N = 32 := N_0
  funext j
  have hj0 : (j 0).val < 2048 := (j 0).isLt
  have hj1 : (j 1).val < 640 := (j 1).isLt
  have ht : t.val < 32 := hN ▸ t.isLt
  have hlt : t.val * 2048 + (j 0).val < 65536 := by omega
  show k0_pay1 (F := Ideal) (iblk m c 0 t) (iblk m c 1 t) (iblk m c 2 t) j
    = flat (V m c main_v0) (V m c main_v1) (V m c main_arg2) (((cfg0.win 3).blk t).view.emb j)
  refine point_eq (iblk m c 0 t) (iblk m c 1 t) (iblk m c 2 t) (V m c main_v0) (V m c main_v1) (V m c main_arg2)
    j (((cfg0.win 3).blk t).view.emb j) ⟨(j 0).val, hj0⟩ ⟨(j 1).val, hj1⟩ ⟨t.val * 2048 + (j 0).val, hlt⟩ rfl rfl ?_ ?_ ?_ ?_ ?_
  · show win0_3.index t (0 : Fin 2) * 2048 + 1 * (j 0).val = t.val * 2048 + (j 0).val
    rw [e6]; omega
  · show win0_3.index t (1 : Fin 2) * 640 + 1 * (j 1).val = (j 1).val
    rw [e7]; omega
  · exact fun d => rows_at m c t ⟨(j 0).val, hj0⟩ d ⟨t.val * 2048 + (j 0).val, hlt⟩ rfl
  · exact keys_at m c t
  · exact vals_at m c t

/-! ## The cover, and the array -/

/-- An index of the array is in point `t`'s block iff each coordinate is in the block's range on its axis. -/
theorem mem_blk (t : Fin cfg0.N) (i : S65536x640.Idx) :
    i ∈ ((cfg0.win 3).blk t).view.set ↔ ∀ a : Fin 2, win0_3.index t a * S2048x640.size a ≤ (i a).val ∧ (i a).val < win0_3.index t a * S2048x640.size a + S2048x640.size a := by
  show i ∈ ((View.whole main_v2).slice (win0_3.rect t)).set ↔ _
  rw [View.set_slice_whole, Rect.mem_set_unit]
  exact Iff.rfl

/-- Row `r` of the output is in the block of point `r / 2048`. -/
theorem cover (i : S65536x640.Idx) :
    ∃ t : Fin cfg0.N, (cfg0.win 3).flush t = true ∧ i ∈ ((cfg0.win 3).blk t).view.set := by
  have hN : cfg0.N = 32 := N_0
  have hi0 : (i 0).val < 65536 := (i 0).isLt
  have hi1 : (i 1).val < 640 := (i 1).isLt
  obtain ⟨t, ht⟩ : ∃ t : Fin cfg0.N, t.val = (i 0).val / 2048 := ⟨⟨(i 0).val / 2048, by rw [hN]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 2048 ≤ (i 0).val ∧ (i 0).val < win0_3.index t (0 : Fin 2) * 2048 + 2048
    rw [e6, ht]; omega
  | ⟨1, _⟩ =>
    show win0_3.index t (1 : Fin 2) * 640 ≤ (i 1).val ∧ (i 1).val < win0_3.index t (1 : Fin 2) * 640 + 640
    rw [e7]; omega

/-- THE OUTPUT ARRAY after the 32 points. -/
theorem final (c : Dev nD) :
    (dats m 0 c).arrAt 3 cfg0.N = flat (V m c main_v0) (V m c main_v1) (V m c main_arg2) :=
  (dats m 0 c).arrAt_eq_of_cover 3 (flat (V m c main_v0) (V m c main_v1) (V m c main_arg2))
    (fun t _ => flushed_eq m c t) cover

end Cert.MemAttn.Blocks

end
-- ==== Proof.HostSide.lean ====
/-
  The kernel program's host operations around its tiled region, read as values.

  Before the region the rows of `x` are laid out flat, [16, 4096, 640] → [65536, 640] (row `(b, r)` becomes row
  `4096 b + r`), and the keys are transposed, [64, 640] → [640, 64]. After it the [65536, 640] output is laid back out as
  [16, 4096, 640]. `MemAttn.flat` of the flat rows and the transposed keys, at row `4096 b + r`, is `MemAttn.whole` of
  the arrays as given, at `(b, r)`: both are `attend` of the same row against the same keys and values.
-/
import proofs.«116638_j88072599372329_2_alg».proof.Proof.Gen.KernelIdeal.Frame
import proofs.«116638_j88072599372329_2_alg».proof.Proof.Attend
import Idealize.ShloMosaic.Lib.Pipeline.Value
import Idealize.ShloMosaic.Lib.ValueLayout
import Idealize.ShloMosaic.Lib.StableHlo.Run

noncomputable section

namespace Cert.MemAttn.Host

open Cert.KernelIdeal Cert.KernelIdeal.Gen Idealize.ShloMosaic Idealize.ShloMosaic.TcCoe Idealize.SL.Sem
open Idealize.ShloMosaic.ValueIdx Idealize.ShloMosaic.StableHlo Cert.MemAttn
open Idealize.ShloMosaic.Pipeline (Dat)

variable (m : (ℓ : Loc nD τ sig) → Buf (Elt Ideal) ℓ) (ρ : Dev nD → PrngReg)

/-- The rows the region finds: the argument laid out flat. -/
theorem V_rows (c : Dev nD) : (V m c main_v0 : S65536x640.Idx → EReal)
    = shapeCast S65536x640 (m ((c : Thread nD τ).loc main_arg0)) shapeCasts_S16x4096x640_S65536x640 := by
  show StableHlo.after hostOps0 (fun b => m (c, b)) (Proc.devRef .tc main_v0) = _
  after_results
  rfl

/-- The keys the region finds: the argument transposed. -/
theorem V_keys (c : Dev nD) : (V m c main_v1 : S640x64.Idx → EReal)
    = transpose S640x64 [1, 0] (m ((c : Thread nD τ).loc main_arg1)) transposes_S64x640_S640x64_1_0 := by
  show StableHlo.after hostOps0 (fun b => m (c, b)) (Proc.devRef .tc main_v1) = _
  after_results

/-- The program's result: the pipeline's output array laid back out as [16, 4096, 640]. -/
theorem tail_eq (c : Dev nD) : Pipeline.afterTail₀ cfgs (dats m) 0 (V0 m) [hostOps1] c main_v3
    = shapeCast S16x4096x640 ((dats m 0 c).arrAt 3 cfg0.N) shapeCasts_S65536x640_S16x4096x640 := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.tc.devRef main_v2)
      = (dats m 0 c).arrAt 3 cfg0.N from
    Pipeline.withArrays_arr spec0 launch0.win.arr_inj c (V0 m c) (fun w => (dats m 0 c).arrAt w (cfgs 0).N) 3]
  rfl

/-- `flat` over the flat rows and the transposed keys, at row `4096 b + r`, is `whole` at `(b, r)`. -/
theorem flat_eq_whole (X : S16x4096x640.Idx → EReal) (Mk Mv : S64x640.Idx → EReal)
    (b : Fin 16) (r : Fin 4096) (q : Fin 640) (n : Fin 65536) (hn : n.val = b.val * 4096 + r.val) :
    flat (shapeCast S65536x640 X shapeCasts_S16x4096x640_S65536x640)
        (transpose S640x64 [1, 0] Mk transposes_S64x640_S640x64_1_0) Mv (ix2 n q)
      = whole X Mk Mv (ix3 b r q) := by
  rw [flat_ix2, whole_ix3]
  unfold flatAt wholeAt
  have e0 : (fun d' : Fin 640 => shapeCast S65536x640 X shapeCasts_S16x4096x640_S65536x640 (ix2 n d'))
      = fun d' => X (ix3 b r d') := funext fun d' =>
    shapeCast_apply X shapeCasts_S16x4096x640_S65536x640 (ix2 n d') (ix3 b r d') (by
      rw [Shape.rowMajor_val_three, Shape.rowMajor_val_two]
      show (b.val * 4096 + r.val) * 640 + d'.val = n.val * 640 + d'.val
      rw [hn])
  have e1 : (fun (k : Fin 64) (d' : Fin 640) => transpose S640x64 [1, 0] Mk transposes_S64x640_S640x64_1_0 (ix2 d' k))
      = fun k d' => Mk (ix2 k d') := funext fun k => funext fun d' =>
    transpose_ix2_apply Mk transposes_S64x640_S640x64_1_0 d' k
  rw [e0, e1]

end Cert.MemAttn.Host

end
-- ==== Proof.KernelRun.lean ====
/-
  The kernel program's run, read: its result array ends holding `MemAttn.whole` of its three arguments.

  The region's output array is `flat` of the flat rows, the transposed keys and the values (the blocks); those three
  are the first argument laid out flat, the second transposed, and the third as given (the host operations before the
  region); the result is the output array laid back out (the host operation after it). Entry `(b, r, q)` of the result
  is therefore entry `(4096 b + r, q)` of `flat`, which is `whole` at `(b, r, q)`.
-/
import proofs.«116638_j88072599372329_2_alg».proof.Proof.Blocks
import proofs.«116638_j88072599372329_2_alg».proof.Proof.HostSide

noncomputable section

namespace Cert.MemAttn.Kernel

open Cert.KernelIdeal Cert.KernelIdeal.Gen Idealize.ShloMosaic Idealize.ShloMosaic.TcCoe Idealize.SL.Sem
open Idealize.ShloMosaic.ValueIdx Cert.MemAttn
open Idealize.ShloMosaic.Pipeline (Dat)

variable (m : (ℓ : Loc nD τ sig) → Buf (Elt Ideal) ℓ) (ρ : Dev nD → PrngReg)

/-- The program's result is the attention function of its arguments. -/
theorem result_eq (c : Dev nD) : Pipeline.afterTail₀ cfgs (dats m) 0 (V0 m) [hostOps1] c main_v3
    = whole (m ((c.tc : Thread nD τ).loc main_arg0)) (m ((c.tc : Thread nD τ).loc main_arg1))
        (m ((c.tc : Thread nD τ).loc main_arg2)) := by
  rw [Host.tail_eq, Blocks.final, Host.V_rows, Host.V_keys, V_main_arg2]
  funext i
  obtain ⟨b, r, q, rfl⟩ : ∃ (b : Fin 16) (r : Fin 4096) (q : Fin 640), i = ix3 b r q := ⟨i 0, i 1, i 2, eq_ix3 i⟩
  have hlt : b.val * 4096 + r.val < 65536 := by have := b.isLt; have := r.isLt; omega
  refine (shapeCast_apply _ shapeCasts_S65536x640_S16x4096x640 (ix3 b r q) (ix2 ⟨b.val * 4096 + r.val, hlt⟩ q) ?_).trans
    (Host.flat_eq_whole _ _ _ b r q ⟨b.val * 4096 + r.val, hlt⟩ rfl)
  rw [Shape.rowMajor_val_two, Shape.rowMajor_val_three]
  rfl

/-- Every weakly fair execution of the kernel program terminates with its result at `whole` of the arguments and the
    arguments unchanged. -/
theorem run : θ_run defs (onTc (τ := τ) (main (F := Ideal))) ⟨m, fun _ => 0, ρ⟩ fun r => ∀ c : Dev nD,
      r.2.mem ((c.tc : Thread nD τ).loc main_v3)
        = whole (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.MemAttn.Kernel

end
-- ==== Proof.lean ====
/-
  Attention over a fixed memory: for every row `x[b, r, :]` of a [16, 4096, 640] array, the softmax of its 64 inner
  products with the key rows `Mk[k, :]`, used to average the value rows `Mv[k, :]`.

  The kernel program lays the 65536 rows out flat, transposes the keys, and runs a tiled region over 32 blocks of 2048
  rows; each block forms its 2048 × 64 scores as a matrix product, takes the softmax along each row (the row's maximum
  subtracted, exponentials, their sum, the quotient) and multiplies the weights into the values; the result is laid back
  out as [16, 4096, 640]. The reference does the same with two whole contractions and a softmax along the last axis.
  On the extended reals the two compute ONE function, `MemAttn.whole` (Proof/Attend.lean): the same operations in the
  same order on each row, with -∞ and 0 the same literals on both sides, a narrowing to bf16 the identity, and a matrix
  product into a zero accumulator, a contraction, a lane sum and a host sum all plain finite sums. No step uses that the
  inputs are finite.

  Proof/RefAttend.lean: the reference's result is `whole` of its arguments. Proof/Payload.lean: one block's result, row by
  row. Proof/Blocks.lean: the region's output array from its 32 blocks. Proof/HostSide.lean: the layout operations around
  the region. Proof/KernelRun.lean: the kernel program's run with its result at `whole` of its arguments.
-/
import proofs.«116638_j88072599372329_2_alg».proof.Defs
import proofs.«116638_j88072599372329_2_alg».proof.Proof.Gen.Kernel
import proofs.«116638_j88072599372329_2_alg».proof.Proof.Gen.Kernel.Skeleton
import proofs.«116638_j88072599372329_2_alg».proof.Proof.Gen.Kernel.Launch
import proofs.«116638_j88072599372329_2_alg».proof.Proof.Gen.Kernel.Points
import proofs.«116638_j88072599372329_2_alg».proof.Proof.Gen.Kernel.Frame
import proofs.«116638_j88072599372329_2_alg».proof.Proof.Gen.KernelIdeal
import proofs.«116638_j88072599372329_2_alg».proof.Proof.Gen.KernelIdeal.Skeleton
import proofs.«116638_j88072599372329_2_alg».proof.Proof.Gen.KernelIdeal.Launch
import proofs.«116638_j88072599372329_2_alg».proof.Proof.Gen.KernelIdeal.Points
import proofs.«116638_j88072599372329_2_alg».proof.Proof.Gen.KernelIdeal.Frame
import proofs.«116638_j88072599372329_2_alg».proof.Proof.Gen.ReferenceIdeal
import proofs.«116638_j88072599372329_2_alg».proof.Proof.Gen.ReferenceIdeal.Run
import proofs.«116638_j88072599372329_2_alg».proof.Proof.Gen.ReferenceIdeal.Read
import proofs.«116638_j88072599372329_2_alg».proof.Proof.Gen.Pre_finite_inputs
import proofs.«116638_j88072599372329_2_alg».proof.Proof.RefAttend
import proofs.«116638_j88072599372329_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference runs and keeps its arguments: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories agreeing on the three arguments both programs end with their result at `MemAttn.whole` of the
    arguments: the kernel program by its blocks and layout operations, the reference stage by stage. -/
theorem algebraic : Cert.algebraic_KernelIdeal_ReferenceIdeal := by
  intro m ρ m' ρ' _ hagree
  refine ⟨fun c => Cert.MemAttn.whole (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.MemAttn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.MemAttn.Ref.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
